-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel

variable [Facts]

def fn {F : FTy → Type} [FloatOps F] (main_arg0 : FVec F S8192x16384 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  main_v3
-- ==== Kernel.lean ====
abbrev S8192x16384 : Shape := ⟨2, ![8192, 16384]⟩
abbrev S64x16384 : Shape := ⟨2, ![64, 16384]⟩

abbrev nBuf : Space → Nat
  | .hbm => 2
  | .vmem => 4
  | .smem => 0
  | _ => 0

abbrev bufTy : (tb : Table) → Fin (tcTables nBuf tb) → BufTy
  | .hbm, ⟨0, _⟩ => ⟨S8192x16384, .f32⟩
  | .hbm, ⟨1, _⟩ => ⟨S8192x16384, .f32⟩
  | .local _ .vmem, ⟨0, _⟩ => ⟨S64x16384, .f32⟩
  | .local _ .vmem, ⟨1, _⟩ => ⟨S64x16384, .f32⟩
  | .local _ .vmem, ⟨2, _⟩ => ⟨S64x16384, .f32⟩
  | .local _ .vmem, ⟨3, _⟩ => ⟨S64x16384, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x16384_S64x16384_0_0 : ∀ a, (![0, 0] : Fin 2 → Nat) a + S64x16384.size a ≤ S64x16384.size a
  h_S64x16384 : 0 < S64x16384.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S8192x16384.size a
  hwx0_0 : ∀ i : grid0.Coords, EltTy.bits .f32 = 32 ∨ (Rect.block (s := S8192x16384) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S8192x16384.size a
  hwx0_1 : ∀ i : grid0.Coords, EltTy.bits .f32 = 32 ∨ (Rect.block (s := S8192x16384) S64x16384.size (cc0_transform_1 i) (hinb0_1 i)).WholeWords (EltTy.packing .f32)

variable [Facts₀]

abbrev win0_0 : Pipeline.Window sig grid0 :=
  Pipeline.Window.ofSpec (Memref.whole main_arg0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x16384 : Shape := ⟨2, ![8192, 16384]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S_, .f32⟩
  | .hbm, ⟨2, _⟩ => ⟨S8192x16384, .f32⟩
  | .hbm, ⟨3, _⟩ => ⟨S8192x16384, .f32⟩
  | .hbm, ⟨4, _⟩ => ⟨S_, .f32⟩
  | .hbm, ⟨5, _⟩ => ⟨S8192x16384, .f32⟩
  | .hbm, ⟨6, _⟩ => ⟨S8192x16384, .f32⟩
  | .hbm, ⟨7, _⟩ => ⟨S_, .f32⟩
  | .hbm, ⟨8, _⟩ => ⟨S8192x16384, .f32⟩
  | .hbm, ⟨9, _⟩ => ⟨S8192x16384, .f32⟩
  | .hbm, ⟨10, _⟩ => ⟨S_, .f32⟩
  | .hbm, ⟨11, _⟩ => ⟨S8192x16384, .f32⟩
  | .hbm, ⟨12, _⟩ => ⟨S8192x16384, .f32⟩
  | .hbm, ⟨13, _⟩ => ⟨S8192x16384, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S8192x16384 : S_.BroadcastsInDim S8192x16384 (![] : Fin 0 → Fin S8192x16384.rank)

variable [Facts₀]

class Facts : Prop extends Facts₀ where

variable [Facts]
-- ==== Proof.LibQuarter.lean ====
/-
  A quotient by four is a product with one quarter, on every extended real.

  The 32-bit float word 0x40800000 has sign 0, exponent field 129 and an empty significand field: it is the real
  number 2^(129-127) = 4. The word 0x3E800000 has sign 0, exponent field 125 and an empty significand field: it is
  2^(125-127) = 1/4. Both are exact powers of two, so each word denotes its number with nothing rounded away.

  Dividing an extended real a by a nonzero real y is multiplying a by the real 1/y. This holds at the two
  infinities as well as at the reals: for y > 0 both a / y and a * (1/y) keep an infinite a as it is. So
  a / 4 and a * (1/4) are one function of a, with no finiteness assumption on a.
-/
import Idealize.ShloMosaic.PureOps.Ideal

noncomputable section

namespace Cert.Lib.Quarter

open Idealize.ShloMosaic

/-- The float word `0x40800000` denotes the real number `4`. -/
theorem ofBits_four : Ideal.ofBits .f32 0x40800000#32 = ((4 : ℝ) : EReal) := by
  simp [Ideal.ofBits, Ideal.ieee, -EReal.coe_mul]; norm_num

/-- The float word `0x3E800000` denotes the real number `1/4`. -/
theorem ofBits_quarter : Ideal.ofBits .f32 0x3E800000#32 = ((1 / 4 : ℝ) : EReal) := by
  simp [Ideal.ofBits, Ideal.ieee, -EReal.coe_mul]; norm_num

/-- Dividing any extended real by the word `4.0` is multiplying it by the word `0.25`: the quotient by a
    nonzero real is the product with its reciprocal, at the infinities too. -/
theorem div_four_eq_mul_quarter (a : EReal) :
    Ideal.div a (Ideal.ofBits .f32 0x40800000#32) = a * Ideal.ofBits .f32 0x3E800000#32 := by
  rw [ofBits_four, ofBits_quarter]
  exact Ideal.div_coe (by norm_num) a

end Cert.Lib.Quarter

end
-- ==== Proof.ChainValue.lean ====
/-
  The reference's result is the kernel's result, entry by entry, on the extended reals.

  Write w = (x + 2) * 3 - 5 for an entry x of the input. The kernel's array after its run holds (w * (1/4)) * (w * (1/4))
  at every index (its body is a tree of pointwise operations on one row block, and the row blocks tile the array).
  The reference computes (w / 4) * (w / 4), the constants 2, 3, 5, 4 each a scalar spread over the whole array.
  The constants 2, 3 and 5 are the same float words on both sides and are never evaluated; the sum, the product and
  the difference are the same exact operations on both sides. The one difference is the last scaling, and a quotient
  by four is a product with one quarter on every extended real, the infinities included. So no finiteness of x is used.
-/
import proofs.«154832_j76166950028114_2_alg».proof.Proof.Gen.KernelIdeal.Value
import proofs.«154832_j76166950028114_2_alg».proof.Proof.Gen.ReferenceIdeal.Run
import proofs.«154832_j76166950028114_2_alg».proof.Proof.LibQuarter

noncomputable section

open Idealize.ShloMosaic Idealize.ShloMosaic.TcCoe Idealize.SL.Sem

namespace Cert.ReferenceIdeal.RefValue

open Cert.ReferenceIdeal Cert.ReferenceIdeal.Gen

/-- The reference's composed term of the input array, at the extended reals, is the kernel's whole-array function of
    it: at every index both are `(w * (1/4)) * (w * (1/4))` with `w = (x + 2) * 3 - 5`, the reference's quotient by
    the word `4.0` being the kernel's product with the word `0.25`. -/
theorem result_eq (x : FVec Ideal S8192x16384 .f32) :
    mulf (Host.divf (subf (mulf (addf x (broadcastInDim S8192x16384 ![] bcast_S_S8192x16384 (constant S_ .f32 0x40000000#32))) (broadcastInDim S8192x16384 ![] bcast_S_S8192x16384 (constant S_ .f32 0x40400000#32))) (broadcastInDim S8192x16384 ![] bcast_S_S8192x16384 (constant S_ .f32 0x40A00000#32))) (broadcastInDim S8192x16384 ![] bcast_S_S8192x16384 (constant S_ .f32 0x40800000#32)))
      (Host.divf (subf (mulf (addf x (broadcastInDim S8192x16384 ![] bcast_S_S8192x16384 (constant S_ .f32 0x40000000#32))) (broadcastInDim S8192x16384 ![] bcast_S_S8192x16384 (constant S_ .f32 0x40400000#32))) (broadcastInDim S8192x16384 ![] bcast_S_S8192x16384 (constant S_ .f32 0x40A00000#32))) (broadcastInDim S8192x16384 ![] bcast_S_S8192x16384 (constant S_ .f32 0x40800000#32)))
    = Cert.KernelIdeal.Value.G1 (F := Ideal) x := by
  have word : ∀ b : BitVec 32, Scalar.ofBits (F := Ideal) .f32 b = Ideal.ofBits .f32 b := fun _ => rfl
  funext i
  simp only [Cert.KernelIdeal.Value.G1, mulf, Host.divf, subf, addf, broadcastInDim, constant, word,
    Ideal.hostDivf_def, Ideal.mulf_def, Ideal.addf_def, Ideal.subf_def, Ideal.ofBits_def,
    Cert.Lib.Quarter.div_four_eq_mul_quarter]

end Cert.ReferenceIdeal.RefValue

end
-- ==== Proof.lean ====
/-
  The kernel computes z * z with z = ((x + 2) * 3 - 5) * (1/4) for every entry x of a matrix of 8192 rows and 16384
  columns, one block of 64 whole rows per grid point; the reference computes z * z with z = ((x + 2) * 3 - 5) / 4 on the
  whole matrix at once.

  Frames. Each program terminates on every weakly fair execution, without a fault, and leaves its argument array as
  it found it: for the word-level kernel this is its frame run; for the idealized kernel and for the reference it is
  the run that also names the result, with the result forgotten.

  The idealized kernel is the kernel's own text read over the extended reals (no operation was rewritten), so
  there is nothing to preserve beyond that.

  Values. Over the extended reals the kernel's result array is one function of the input array, index by index:
  the 128 row blocks are disjoint and together cover every row, and the body is pointwise, so entry (r, k) of the
  result depends on entry (r, k) of the input only. The reference's result is the same function: the two sides
  differ only in dividing by 4 against multiplying by 1/4, and these agree at every extended real, the infinities
  included. The finiteness of the input is therefore not used.
-/
import proofs.«154832_j76166950028114_2_alg».proof.Defs
import proofs.«154832_j76166950028114_2_alg».proof.Proof.Gen.Kernel.Frame
import proofs.«154832_j76166950028114_2_alg».proof.Proof.Gen.KernelIdeal.Value
import proofs.«154832_j76166950028114_2_alg».proof.Proof.Gen.Pre_finite_inputs
import proofs.«154832_j76166950028114_2_alg».proof.Proof.Gen.ReferenceIdeal.Run
import proofs.«154832_j76166950028114_2_alg».proof.Proof.ChainValue
import Idealize.ShloMosaic.Adequacy
import Idealize.ShloMosaic.Init

noncomputable section

namespace Cert.Proof

open Idealize.ShloMosaic Idealize.SL.Sem

/-- The idealized kernel runs and keeps its argument: its value run, with what the result holds forgotten. -/
theorem frame_KernelIdeal : frame_KernelIdeal := fun m ρ _ =>
  (θ_run Cert.KernelIdeal.defs _ _).mono (fun _ h c => (h c).2) (Cert.KernelIdeal.Value.run (F := Ideal) m ρ)

/-- The reference runs and keeps its argument: its run, with what the result holds forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the input, both programs end with the same array: the kernel's run ends at its
    whole-array function of the input, the reference's run at its composed term of the same input, and that term is
    that function (a quotient by four is a product with one quarter). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.ReferenceIdeal.RefValue.result_eq _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
